-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S64x64 .f32) (main_arg2 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S100000x64 : Shape := ⟨2, ![100000, 64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S10000x64 : Shape := ⟨2, ![10000, 64]⟩

abbrev nBuf : Space → Nat
  | .hbm => 61
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S_, .i32⟩
  | .hbm, ⟨23, _⟩ => ⟨S100000, .i32⟩
  | .hbm, ⟨24, _⟩ => ⟨S1600000x1, .i32⟩
  | .hbm, ⟨25, _⟩ => ⟨S100000, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunNamed.lean ====
/-
  The idealized kernel's whole run, with the contents of its result buffer at the end NAMED.

  The program is four stretches in order: host operations, the matrix-product region, host operations, the `tanh`
  region.  The contents of every buffer at each boundary are a fold from the launch memory: a host stretch applies its
  operations (`StableHlo.after`), a region replaces its output array by what its write-backs leave and keeps every
  other buffer.  Every weakly fair execution terminates with every unscoped buffer at the last boundary's contents
  `W4`; read at the result buffer this names the result, and read at the three arguments it says they are unchanged.
-/
import proofs.«170832_j59889023975881_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the
    last boundary's contents and the three argument arrays as launched. -/
theorem run_named : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunNamed

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«170832_j59889023975881_2_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.LibProdEntries.lean ====
/-
  An entry of a matrix product depends on one row of the left operand and one column of the right one.

  If row `j 0` of `l` is row `j' 0` of `l'` and column `j 1` of `r` is column `j' 1` of `r'`, then entry `j` of
  `l · r` is entry `j'` of `l' · r'`: the two sums over the shared axis agree term by term.  This is how a product
  taken on a block of rows is read as a block of the product of the whole arrays.
-/
import proofs.«170832_j59889023975881_2_alg».proof.Proof.LibPlainProduct

noncomputable section

namespace Idealize.ShloMosaic.MatmulPlain

open Idealize.ShloMosaic Idealize.ShloMosaic.ValueIdx
open scoped BigOperators

/-- Entry `j` of `l · r` is entry `j'` of `l' · r'` when row `j 0` of `l` is row `j' 0` of `l'` and column `j 1` of `r` is
    column `j' 1` of `r'` (the operands may have different numbers of rows and of columns, and any float formats). -/
theorem prod_entry_congr {M M' K N N' : Nat} {φ₁ φ₁' φ₂ φ₂' : FTy}
    (l : FVec Ideal ⟨2, ![M, K]⟩ φ₁) (r : FVec Ideal ⟨2, ![K, N]⟩ φ₂)
    (l' : FVec Ideal ⟨2, ![M', K]⟩ φ₁') (r' : FVec Ideal ⟨2, ![K, N']⟩ φ₂')
    (j : (⟨2, ![M, N]⟩ : Shape).Idx) (j' : (⟨2, ![M', N']⟩ : Shape).Idx)
    (hl : ∀ k : Fin K, l (ix2 (j 0) k) = l' (ix2 (j' 0) k))
    (hr : ∀ k : Fin K, r (ix2 k (j 1)) = r' (ix2 k (j' 1))) :
    prod l r j = prod l' r' j' := by
  show ∑ k : Fin K, l (ix2 (j 0) k) * r (ix2 k (j 1)) = ∑ k : Fin K, l' (ix2 (j' 0) k) * r' (ix2 k (j' 1))
  exact Finset.sum_congr rfl fun k _ => by rw [hl k, hr k]

end Idealize.ShloMosaic.MatmulPlain

end
-- ==== Proof.RegionValue.lean ====
/-
  What each of the two kernel regions leaves in its output array, as ONE function of the arrays the region finds.

  Region 0 multiplies: its grid has ten points; point `t` loads rows `10000 t … 10000 t + 9999` of the left array and the
  whole 64 × 64 right array, and writes the product of that row block with the right array back to the same rows of
  the output.  An entry of a matrix product depends on one row of the left operand only, so the product of a row block
  is that block of the product of the whole arrays; the ten blocks tile the 100000 rows; hence the output array ends as
  the product `prod A W` of the two whole arrays.

  Region 1 applies `tanh` entry by entry to the same ten row blocks, so its output array ends as `tanh` of its whole
  input array.

  Both are stated for ANY contents `V` of the buffers at the region's entry.
-/
import proofs.«170832_j59889023975881_2_alg».proof.Proof.Gen.KernelIdeal.Frame
import proofs.«170832_j59889023975881_2_alg».proof.Proof.LibProdEntries
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.MatmulPlain

variable (V : (c : Dev nD) → (b : Ref sig .tc) → Buf (Elt Ideal) ((c : Thread nD τ).loc b))

/-- The product of a whole left array with the weights, as a function of the two arrays. -/
abbrev G0 (a : S100000x64.Idx → Elt Ideal .f32) (w : S64x64.Idx → Elt Ideal .f32) : S100000x64.Idx → Elt Ideal .f32 :=
  prod (φ₁ := .f32) (φ₂ := .f32) a w

/-- `tanh` of a whole array, entry by entry. -/
abbrev G1 (a : S100000x64.Idx → Elt Ideal .f32) : S100000x64.Idx → Elt Ideal .f32 := fun i => FloatOps.tanh (F := Ideal) (φ := .f32) (a i)

theorem zero_offsets : (![0, 0] : Fin 2 → Nat) = fun _ => 0 := funext fun a => by fin_cases a <;> rfl

/-! ## Region 0: the matrix product -/

/-- The body's matrix product carries the dimension numbers of a plain product `x @ w`. -/
theorem plain0 : IsPlain (M := 10000) (N := 64) (K := 64) dot_S10000x64_S64x64_S10000x64_1_0_0_1_n_n :=
  ⟨rfl, rfl, rfl, rfl, rfl, rfl⟩

/-- What the body stores is the product of the two blocks it loaded: the casts to the narrower float format are the
    identity on extended reals, and the accumulator is the zero block. -/
theorem pay0_eq (x0 : Vec Ideal S10000x64 .f32) (x1 : Vec Ideal S64x64 .f32) :
    k0_pay1 (F := Ideal) x0 x1 = prod (φ₁ := .f32) (φ₂ := .f32) x0 x1 := by
  unfold k0_pay1
  rw [shapeCast_self]
  exact matmul_zero_eq_prod plain0 none _ _

/-- The printed index maps over the ten grid points: the left operand's and the output's row blocks move together,
    every column block index is zero, and the right operand's block never moves. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is its row block of the product of the whole arrays. -/
theorem flushed0_eq (c : Dev nD) (t : Fin cfg0.N) :
    (dat0 V c).flushed 2 t
      = ((cfg0.win 2).blk t).view.read (Elt Ideal) (G0 (V c main_v13) (V c main_arg1)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  rw [pay0_eq]
  obtain ⟨e0, e1, e2, e3, e4, e5⟩ := idx_facts0 t
  funext j
  show prod (φ₁ := .f32) (φ₂ := .f32) (iblk0 V c 0 t) (iblk0 V c 1 t) j
    = G0 (V c main_v13) (V c main_arg1) (((cfg0.win 2).blk t).view.emb j)
  refine prod_entry_congr _ _ _ _ j _ (fun k => ?_) (fun k => ?_)
  · show V c main_v13 (((cfg0.win 0).blk t).view.emb (ix2 (j 0) k))
      = V c main_v13 (ix2 ((((cfg0.win 2).blk t).view.emb j) 0) k)
    refine congrArg (V c main_v13) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  · show V c main_arg1 (((cfg0.win 1).blk t).view.emb (ix2 k (j 1)))
      = V c main_arg1 (ix2 k ((((cfg0.win 2).blk t).view.emb j) 1))
    refine congrArg (V c main_arg1) (funext fun a => Fin.ext ?_)
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v22).slice (win0_2.rect t)).set ↔ _
  rw [View.set_slice_whole, Rect.mem_set_unit]
  exact Iff.rfl

/-- The ten row blocks tile the output array: row `r` is in the block of the point whose block index is `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- REGION 0's OUTPUT ARRAY after its ten points: the product of the two arrays the region found. -/
theorem final0 (c : Dev nD) :
    (dat0 V c).arrAt 2 cfg0.N = G0 (V c main_v13) (V c main_arg1) :=
  (dat0 V c).arrAt_eq_of_cover 2 _ (fun t _ => flushed0_eq V c t) cover0

/-! ## Region 1: the hyperbolic tangent -/

/-- What the body stores is `tanh` of the block it loaded. -/
theorem pay1_eq (x0 : Vec Ideal S10000x64 .f32) : k1_pay1 (F := Ideal) x0 = fun i => FloatOps.tanh (F := Ideal) (φ := .f32) (x0 i) := by
  unfold k1_pay1
  rw [shapeCast_self]
  rfl

theorem idx_facts1 : ∀ t : Fin cfg1.N, win1_0.index t (0 : Fin 2) = win1_1.index t (0 : Fin 2)
    ∧ win1_0.index t (1 : Fin 2) = 0
    ∧ win1_1.index t (1 : Fin 2) = 0
    ∧ win1_1.index t (0 : Fin 2) ≤ 9 :=
  (by decide +kernel : ∀ t : Fin grid1.N, _)

theorem idx_onto1 : ∀ q0 : Fin 10, ∃ t : Fin cfg1.N, win1_1.index t = ![q0.val, 0] :=
  (by decide +kernel : ∀ q0 : Fin 10, ∃ t : Fin grid1.N, win1_1.index t = ![q0.val, 0])

/-- WHAT POINT `t` WRITES BACK is its row block of `tanh` of the whole input array. -/
theorem flushed1_eq (c : Dev nD) (t : Fin cfg1.N) :
    (dat1 V c).flushed 1 t = ((cfg1.win 1).blk t).view.read (Elt Ideal) (G1 (V c main_v45)) := by
  show (cfg1.win 1).cut (grid1.coords t) ((dat1 V c).after 1 t) = _
  rw [after1_1]
  unfold out1_1
  rw [View.canon_unit_zero zero_offsets]
  simp only [View.ld_unit_zero (S := S10000x64) zero_offsets]
  rw [pay1_eq]
  obtain ⟨e0, e1, e2, e3⟩ := idx_facts1 t
  funext j
  show FloatOps.tanh (F := Ideal) (φ := .f32) (V c main_v45 (((cfg1.win 0).blk t).view.emb j))
    = FloatOps.tanh (F := Ideal) (φ := .f32) (V c main_v45 (((cfg1.win 1).blk t).view.emb j))
  have h0 : ((cfg1.win 0).blk t).view.emb j = ((cfg1.win 1).blk t).view.emb j := by
    funext a; apply Fin.ext
    match a with
    | ⟨0, _⟩ =>
      show win1_0.index t (0 : Fin 2) * 10000 + 1 * (j 0).val = win1_1.index t (0 : Fin 2) * 10000 + 1 * (j 0).val
      omega
    | ⟨1, _⟩ =>
      show win1_0.index t (1 : Fin 2) * 64 + 1 * (j 1).val = win1_1.index t (1 : Fin 2) * 64 + 1 * (j 1).val
      omega
  rw [h0]

theorem mem_blk1 (t : Fin cfg1.N) (i : S100000x64.Idx) :
    i ∈ ((cfg1.win 1).blk t).view.set ↔ ∀ a : Fin 2, win1_1.index t a * S10000x64.size a ≤ (i a).val
      ∧ (i a).val < win1_1.index t a * S10000x64.size a + S10000x64.size a := by
  show i ∈ ((View.whole main_v46).slice (win1_1.rect t)).set ↔ _
  rw [View.set_slice_whole, Rect.mem_set_unit]
  exact Iff.rfl

theorem cover1 (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ := idx_onto1 ⟨(i 0).val / 10000, by omega⟩
  have q0 : win1_1.index t (0 : Fin 2) = (i 0).val / 10000 := congrFun ht 0
  have q1 : win1_1.index t (1 : Fin 2) = 0 := congrFun ht 1
  refine ⟨t, flush1_1 t, ?_⟩
  rw [mem_blk1]
  intro a
  match a with
  | ⟨0, _⟩ =>
    show win1_1.index t (0 : Fin 2) * 10000 ≤ (i 0).val ∧ (i 0).val < win1_1.index t (0 : Fin 2) * 10000 + 10000
    omega
  | ⟨1, _⟩ =>
    show win1_1.index t (1 : Fin 2) * 64 ≤ (i 1).val ∧ (i 1).val < win1_1.index t (1 : Fin 2) * 64 + 64
    omega

/-- REGION 1's OUTPUT ARRAY after its ten points: `tanh` of the array the region found. -/
theorem final1 (c : Dev nD) : (dat1 V c).arrAt 1 cfg1.N = G1 (V c main_v45) :=
  (dat1 V c).arrAt_eq_of_cover 1 _ (fun t _ => flushed1_eq V c t) cover1

end Cert.KernelIdeal.RegionValue

end
-- ==== Proof.Spec.lean ====
/-
  The idealized kernel's result as ONE function of the three arguments: node features `x0` [100000, 64], weights
  `x1` [64, 64] and the edge list `x2` [2, 1600000] (row 0 the source node of each edge, row 1 its target).

  Wherever the kernel's host code and the reference compute the same stage (the normalised source and target indices,
  the features gathered along the sources and summed per target `S`, the zero arrays), the stage is named by the
  reference's own stage function.  Where they differ the kernel's form is written out:

    cntK   the number of edges per target node, counted in 32-bit integers, converted, and clamped below by one
           (the reference counts by summing float ones);
    xK     `(S · x1) / cnt`, the matrix product first and the division by the count after
           (the reference divides `S` by the count first and multiplies after);
    sqK    `d * d` for `d` the difference of `xK` gathered at an edge's source and at its target
           (the reference squares `|d|`);
    resK   `tanh` of the per-target sums of `sqK` divided by the count.
-/
import proofs.«170832_j59889023975881_2_alg».proof.Proof.Gen.ReferenceIdeal.Read
import proofs.«170832_j59889023975881_2_alg».proof.Proof.LibPlainProduct

noncomputable section

namespace Cert.Spec

open Cert.ReferenceIdeal Cert.ReferenceIdeal.Gen Cert.ReferenceIdeal.Read
open Idealize.ShloMosaic Idealize.ShloMosaic.MatmulPlain

/-- Edges per target node: scattered 32-bit ones summed by integer addition into zeros, converted to a float, and
    clamped below by one. -/
def cntK (x2 : (⟨S2x1600000, .i32⟩ : BufTy).Contents (Elt Ideal)) : FVec Ideal S100000 .f32 :=
  maximumf
    (sitofp .f32 (Host.scatter scatter_S100000_S1600000x1_S1600000_n_0_0_1 IntOp.addi
      (broadcastInDim S100000 ![] bcast_S_S100000 (constantI S_ 32 0#32))
      (val_main_v16 (F := Ideal) x2)
      (broadcastInDim S1600000 ![] bcast_S_S1600000 (constantI S_ 32 1#32))))
    (val_main_v18 (F := Ideal))

/-- The count as a column [100000, 1]: what the first host stretch leaves for the second. -/
def colK (x2 : (⟨S2x1600000, .i32⟩ : BufTy).Contents (Elt Ideal)) : FVec Ideal S100000x1 .f32 :=
  broadcastInDim S100000x1 ![0] bcast_S100000_S100000x1_0 (cntK x2)

/-- The count spread along each row [100000, 64]. -/
def denK (x2 : (⟨S2x1600000, .i32⟩ : BufTy).Contents (Elt Ideal)) : FVec Ideal S100000x64 .f32 :=
  broadcastInDim S100000x64 ![0, 1] bcast_S100000x1_S100000x64_0_1 (colK x2)

/-- The summed neighbour features times the weights, each row then divided by its count. -/
def xK (x0 : (⟨S100000x64, .f32⟩ : BufTy).Contents (Elt Ideal)) (x1 : (⟨S64x64, .f32⟩ : BufTy).Contents (Elt Ideal))
    (x2 : (⟨S2x1600000, .i32⟩ : BufTy).Contents (Elt Ideal)) : FVec Ideal S100000x64 .f32 :=
  Host.divf (prod (φ₁ := .f32) (φ₂ := .f32) (val_main_v13 (F := Ideal) x0 x2) x1) (denK x2)

/-- Per edge and feature: the squared difference of `xK` at the edge's source and at its target. -/
def sqK (x0 : (⟨S100000x64, .f32⟩ : BufTy).Contents (Elt Ideal)) (x1 : (⟨S64x64, .f32⟩ : BufTy).Contents (Elt Ideal))
    (x2 : (⟨S2x1600000, .i32⟩ : BufTy).Contents (Elt Ideal)) : FVec Ideal S1600000x64 .f32 :=
  mulf
    (subf (Host.gather gather_S100000x64_S1600000x1_S1600000x64_1_0_n_n_0_1_164 (xK x0 x1 x2) (val_main_v29 (F := Ideal) x2))
      (Host.gather gather_S100000x64_S1600000x1_S1600000x64_1_0_n_n_0_1_164 (xK x0 x1 x2) (val_main_v36 (F := Ideal) x2)))
    (subf (Host.gather gather_S100000x64_S1600000x1_S1600000x64_1_0_n_n_0_1_164 (xK x0 x1 x2) (val_main_v29 (F := Ideal) x2))
      (Host.gather gather_S100000x64_S1600000x1_S1600000x64_1_0_n_n_0_1_164 (xK x0 x1 x2) (val_main_v36 (F := Ideal) x2)))

/-- The squared differences summed per target node and divided by the count: what the `tanh` region is given. -/
def preK (x0 : (⟨S100000x64, .f32⟩ : BufTy).Contents (Elt Ideal)) (x1 : (⟨S64x64, .f32⟩ : BufTy).Contents (Elt Ideal))
    (x2 : (⟨S2x1600000, .i32⟩ : BufTy).Contents (Elt Ideal)) : FVec Ideal S100000x64 .f32 :=
  Host.divf
    (Host.scatterAdd scatter_S100000x64_S1600000x1_S1600000x64_1_0_0_1 (val_main_v41 (F := Ideal)) (val_main_v42 (F := Ideal) x2)
      (sqK x0 x1 x2))
    (denK x2)

/-- The idealized kernel's result. -/
def resK (x0 : (⟨S100000x64, .f32⟩ : BufTy).Contents (Elt Ideal)) (x1 : (⟨S64x64, .f32⟩ : BufTy).Contents (Elt Ideal))
    (x2 : (⟨S2x1600000, .i32⟩ : BufTy).Contents (Elt Ideal)) : FVec Ideal S100000x64 .f32 :=
  tanh (preK x0 x1 x2)

end Cert.Spec

end
-- ==== Proof.KernelRun.lean ====
/-
  The idealized kernel's result buffer ends at `Spec.resK` of the three argument arrays.

  The buffer contents at the four boundaries of the run are read one stretch at a time.  The first host stretch, from
  the launch memory, leaves: the summed neighbour features `S` (the reference's stage of the same name), the source and
  target rows of the edge list, and the clamped count as a column.  The matrix-product region replaces its output
  array by `S · x1` (RegionValue.final0) and keeps every other buffer.  The second host stretch divides by the count,
  gathers along sources and targets, squares the differences, sums per target and divides again: `Spec.preK`.  The
  last region replaces its output by `tanh` of that (RegionValue.final1).
-/
import proofs.«170832_j59889023975881_2_alg».proof.Proof.RunNamed
import proofs.«170832_j59889023975881_2_alg».proof.Proof.RegionValue
import proofs.«170832_j59889023975881_2_alg».proof.Proof.Spec
import Idealize.ShloMosaic.Lib.StableHlo.Run

set_option maxRecDepth 16384

noncomputable section

namespace Cert.KernelIdeal.KernelRun

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch -/

set_option maxHeartbeats 4000000 in
/-- The summed neighbour features, as the reference's stage of the arguments. -/
theorem entry0_v13 (c : Dev nD) :
    W1 m ρ c (Proc.devRef .tc main_v13) = Cert.ReferenceIdeal.Read.val_main_v13 (F := Ideal) (m ((c : Thread nD τ).loc main_arg0)) (m ((c : Thread nD τ).loc main_arg2)) := by
  show StableHlo.after hostOps0 (W0 m ρ c) (Proc.devRef .tc main_v13) = _
  after_results_simp
  rfl

set_option maxHeartbeats 4000000 in
/-- The source row of the edge list. -/
theorem entry0_v1 (c : Dev nD) :
    W1 m ρ c (Proc.devRef .tc main_v1) = Cert.ReferenceIdeal.Read.val_main_v1 (F := Ideal) (m ((c : Thread nD τ).loc main_arg2)) := by
  show StableHlo.after hostOps0 (W0 m ρ c) (Proc.devRef .tc main_v1) = _
  after_results_simp
  rfl

set_option maxHeartbeats 4000000 in
/-- The target row of the edge list. -/
theorem entry0_v3 (c : Dev nD) :
    W1 m ρ c (Proc.devRef .tc main_v3) = Cert.ReferenceIdeal.Read.val_main_v3 (F := Ideal) (m ((c : Thread nD τ).loc main_arg2)) := by
  show StableHlo.after hostOps0 (W0 m ρ c) (Proc.devRef .tc main_v3) = _
  after_results_simp
  rfl

set_option maxHeartbeats 4000000 in
/-- The clamped count as a column. -/
theorem entry0_v21 (c : Dev nD) :
    W1 m ρ c (Proc.devRef .tc main_v21) = Cert.Spec.colK (m ((c : Thread nD τ).loc main_arg2)) := by
  show StableHlo.after hostOps0 (W0 m ρ c) (Proc.devRef .tc main_v21) = _
  after_results_simp
  rfl

set_option maxHeartbeats 4000000 in
/-- The weights are untouched. -/
theorem entry0_arg1 (c : Dev nD) :
    W1 m ρ c (Proc.devRef .tc main_arg1) = (m ((c : Thread nD τ).loc main_arg1)) := by
  show StableHlo.after hostOps0 (W0 m ρ c) (Proc.devRef .tc main_arg1) = _
  after_results_simp

/-! ## After the matrix-product region -/

/-- The region's output array is the product of the summed features with the weights. -/
theorem mid_v22 (c : Dev nD) :
    W2 m ρ c (Proc.devRef .tc main_v22)
      = Idealize.ShloMosaic.MatmulPlain.prod (φ₁ := .f32) (φ₂ := .f32) (Cert.ReferenceIdeal.Read.val_main_v13 (F := Ideal) (m ((c : Thread nD τ).loc main_arg0)) (m ((c : Thread nD τ).loc main_arg2))) (m ((c : Thread nD τ).loc main_arg1)) := by
  refine (W2_arr m ρ c 2).trans ((Cert.KernelIdeal.RegionValue.final0 (V1 m ρ) c).trans ?_)
  show Cert.KernelIdeal.RegionValue.G0 (W1 m ρ c (Proc.devRef .tc main_v13)) (W1 m ρ c (Proc.devRef .tc main_arg1)) = _
  rw [entry0_v13, entry0_arg1]

/-- Every other buffer the second stretch reads is as the first stretch left it. -/
theorem mid_v1 (c : Dev nD) : W2 m ρ c (Proc.devRef .tc main_v1) = Cert.ReferenceIdeal.Read.val_main_v1 (F := Ideal) (m ((c : Thread nD τ).loc main_arg2)) :=
  (W2_of_ne m ρ c main_v1 (by decide)).trans (entry0_v1 m ρ c)
theorem mid_v3 (c : Dev nD) : W2 m ρ c (Proc.devRef .tc main_v3) = Cert.ReferenceIdeal.Read.val_main_v3 (F := Ideal) (m ((c : Thread nD τ).loc main_arg2)) :=
  (W2_of_ne m ρ c main_v3 (by decide)).trans (entry0_v3 m ρ c)
theorem mid_v21 (c : Dev nD) : W2 m ρ c (Proc.devRef .tc main_v21) = Cert.Spec.colK (m ((c : Thread nD τ).loc main_arg2)) :=
  (W2_of_ne m ρ c main_v21 (by decide)).trans (entry0_v21 m ρ c)

/-! ## After the second host stretch -/

set_option maxHeartbeats 4000000 in
/-- What the `tanh` region is given. -/
theorem entry1_v45 (c : Dev nD) :
    W3 m ρ c (Proc.devRef .tc main_v45) = Cert.Spec.preK (m ((c : Thread nD τ).loc main_arg0)) (m ((c : Thread nD τ).loc main_arg1)) (m ((c : Thread nD τ).loc main_arg2)) := by
  show StableHlo.after hostOps1 (W2 m ρ c) (Proc.devRef .tc main_v45) = _
  after_results_simp
  rw [mid_v22, mid_v21, mid_v1, mid_v3]
  rfl

/-! ## At the end -/

/-- The result buffer at the last boundary. -/
theorem result_eq (c : Dev nD) :
    W4 m ρ c (Proc.devRef .tc main_v46) = Cert.Spec.resK (m ((c : Thread nD τ).loc main_arg0)) (m ((c : Thread nD τ).loc main_arg1)) (m ((c : Thread nD τ).loc main_arg2)) := by
  refine (W4_arr m ρ c 1).trans ((Cert.KernelIdeal.RegionValue.final1 (V3 m ρ) c).trans ?_)
  show Cert.KernelIdeal.RegionValue.G1 (W3 m ρ c (Proc.devRef .tc main_v45)) = _
  rw [entry1_v45]
  rfl

/-- Every weakly fair execution of the idealized kernel terminates with the result buffer at `Spec.resK` of the
    arguments and the arguments unchanged. -/
theorem run : θ_run defs (onTc (τ := τ) (main (F := Ideal))) ⟨m, fun _ => 0, ρ⟩ (fun r => ∀ c : Dev nD,
      r.2.mem ((c.tc : Thread nD τ).loc main_v46) = Cert.Spec.resK (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩)
    (Cert.KernelIdeal.RunNamed.run_named m ρ)

end Cert.KernelIdeal.KernelRun

end
-- ==== Proof.Laws.lean ====
/-
  The two laws of the extended reals that join the kernel's arithmetic to the reference's.

  SCALING A ROW BEFORE OR AFTER THE PRODUCT.  For a positive real `c`, dividing by `c` is multiplying by the
  nonnegative real `1 / c`, and a nonnegative FINITE factor distributes over every sum of extended reals, infinite
  terms included.  Hence `(∑ k, a k * w k) / c = ∑ k, (a k / c) * w k`: a row of a matrix product divided by its
  count is the product of the divided row.  No finiteness of `a` or `w` is used.

  THE SQUARE FORGETS THE SIGN.  `|d| * |d| = d * d` for every extended real `d`, the infinities included, because
  `|d|` is `d` or `-d` and `(-d) * (-d) = d * d`.

  Also: the larger of a natural number and one is a positive real, so a count clamped below by one is a divisor the
  first law applies to.
-/
import Idealize.ShloMosaic.PureOps.Ideal

noncomputable section

namespace Cert.Laws

open Idealize.ShloMosaic
open scoped BigOperators

/-- A nonnegative finite factor distributes over a finite sum of extended reals. -/
theorem sum_mul_of_nonneg {ι : Type} (s : Finset ι) (f : ι → EReal) {r : EReal} (h0 : 0 ≤ r) (ht : r ≠ ⊤) :
    (∑ k ∈ s, f k) * r = ∑ k ∈ s, f k * r := by
  classical
  induction s using Finset.induction_on with
  | empty => simp
  | insert a s ha ih =>
    rw [Finset.sum_insert ha, Finset.sum_insert ha, EReal.right_distrib_of_nonneg_of_ne_top h0 ht, ih]

/-- A sum of products divided by a positive real is the sum of the products of the divided left factors. -/
theorem div_sum_mul {K : Nat} (a w : Fin K → EReal) {c : ℝ} (hc : 0 < c) :
    Ideal.div (∑ k, a k * w k) (c : EReal) = ∑ k, Ideal.div (a k) (c : EReal) * w k := by
  have hne : c ≠ 0 := hc.ne'
  simp only [Ideal.div_coe hne]
  have h0 : (0 : EReal) ≤ ((1 / c : ℝ) : EReal) := by exact_mod_cast (one_div_pos.mpr hc).le
  rw [sum_mul_of_nonneg _ _ h0 (EReal.coe_ne_top _)]
  refine Finset.sum_congr rfl fun k _ => ?_
  rw [mul_assoc, mul_assoc, mul_comm (w k)]

/-- The square of the absolute value is the square. -/
theorem abs_mul_abs (d : EReal) : max d (-d) * max d (-d) = d * d := by
  rcases le_total d (-d) with h | h
  · rw [max_eq_right h, neg_mul_neg]
  · rw [max_eq_left h]

/-- A count clamped below by one, as an extended real, is the real `max n 1`, which is positive. -/
theorem max_count_one (n : Nat) : max (((n : ℝ) : EReal)) 1 = ((max (n : ℝ) 1 : ℝ) : EReal) := by
  rw [← EReal.coe_one]
  exact (EReal.coe_strictMono.monotone.map_max).symm

theorem max_count_one_pos (n : Nat) : (0 : ℝ) < max (n : ℝ) 1 := lt_of_lt_of_le one_pos (le_max_right _ _)

end Cert.Laws

end
-- ==== Proof.LibScatterSum.lean ====
/-
  A scatter whose body ADDS, read at one element.

  `Host.scatter d f x idx upd` folds the updates into the operand one after the other, in row-major order: update `j`
  lands on the element `d.resultIdx? j idx` names (none, if the index falls outside the operand) and replaces it by
  `f` of what is there and the update.  When `f` is the addition of a commutative monoid the order of the fold does
  not matter: element `i` ends as the operand's element plus the sum of all updates that land on `i`.

  Two consequences for COUNTING.  Scattering the 32-bit word `1` into zeros counts, at each element, the updates that
  land there; the count is at most the number of updates, so below `2^31` updates the word read as a signed integer is
  the count itself.  Scattering the extended real `1` into zeros with the exact float sum gives the same count as an
  extended real.  So the integer count converted to a float and the float count agree, element by element.
-/
import Idealize.ShloMosaic.PureOps.ShapeOps
import Idealize.ShloMosaic.PureOps.Ideal
import Idealize.ShloMosaic.PureOps.Ideal.Laws
import Mathlib.Data.BitVec

noncomputable section

namespace Cert.ScatterSum

open Idealize.ShloMosaic
open scoped BigOperators

variable {s si u : Shape} {w : Nat}

/-- The fold of the scatter's step over ANY list of update positions, read at element `i`: the start value there plus
    the updates of the list that land on `i`, in a commutative monoid whose addition the body `f` is. -/
theorem foldl_step_apply {α : Type} [AddCommMonoid α] (d : ScatterDims s si u) (f : α → α → α)
    (hf : ∀ a b, f a b = a + b) (idx : IVec si w) (upd : u.Idx → α) (i : s.Idx) :
    ∀ (l : List (Fin u.numel)) (x : s.Idx → α),
      (l.foldl (fun r n =>
          match d.resultIdx? (u.rowMajor.symm n) idx with
          | some i₀ => fun i' => if i' = i₀ then f (r i₀) (upd (u.rowMajor.symm n)) else r i'
          | none => r) x) i
        = x i + (l.map fun n => if d.resultIdx? (u.rowMajor.symm n) idx = some i then upd (u.rowMajor.symm n) else 0).sum
  | [], x => by simp
  | n :: l, x => by
    rw [List.foldl_cons, foldl_step_apply d f hf idx upd i l, List.map_cons, List.sum_cons, ← add_assoc]
    congr 1
    cases h : d.resultIdx? (u.rowMajor.symm n) idx with
    | none => simp
    | some i₀ =>
      by_cases hi : i = i₀
      · subst hi; simp [hf]
      · have hi' : ¬ (some i₀ = some i) := fun e => hi (Option.some.inj e).symm
        simp [hi, hi']

/-- A scatter whose body is the addition of a commutative monoid, at element `i`: the operand's element plus the sum
    of the updates that land on `i`. -/
theorem scatter_add_apply {α : Type} [AddCommMonoid α] (d : ScatterDims s si u) (f : α → α → α)
    (hf : ∀ a b, f a b = a + b) (x : s.Idx → α) (idx : IVec si w) (upd : u.Idx → α) (i : s.Idx) :
    Host.scatter d f x idx upd i
      = x i + ∑ j ∈ Finset.univ.filter (fun j => d.resultIdx? j idx = some i), upd j := by
  unfold Host.scatter
  refine (foldl_step_apply d f hf idx upd i (List.finRange u.numel) x).trans ?_
  rw [← Fin.sum_univ_def, Finset.sum_filter]
  congr 1
  exact Equiv.sum_comp u.rowMajor.symm (fun j => if d.resultIdx? j idx = some i then upd j else 0)

/-- The number of updates that land on element `i`. -/
def hits (d : ScatterDims s si u) (idx : IVec si w) (i : s.Idx) : Nat :=
  (Finset.univ.filter (fun j : u.Idx => d.resultIdx? j idx = some i)).card

/-- No element is hit more often than there are updates. -/
theorem hits_le (d : ScatterDims s si u) (idx : IVec si w) (i : s.Idx) : hits d idx i ≤ u.numel := by
  unfold hits
  refine (Finset.card_le_univ _).trans (le_of_eq ?_)
  rw [Fintype.card_congr u.rowMajor, Fintype.card_fin]

/-- The word `1` scattered by 32-bit addition into zeros: element `i` is the number of hits as a word. -/
theorem scatter_ones_word (d : ScatterDims s si u) (x : s.Idx → BitVec 32) (idx : IVec si w) (upd : u.Idx → BitVec 32)
    (hx : ∀ i, x i = 0#32) (hupd : ∀ j, upd j = 1#32) (i : s.Idx) :
    Host.scatter d IntOp.addi x idx upd i = BitVec.ofNat 32 (hits d idx i) := by
  rw [scatter_add_apply d IntOp.addi (fun _ _ => rfl), hx, Finset.sum_congr rfl (fun j _ => hupd j)]
  simp [hits]

/-- Below `2^31` updates that word, read as a signed integer, is the number of hits. -/
theorem scatter_ones_toInt (d : ScatterDims s si u) (x : s.Idx → BitVec 32) (idx : IVec si w) (upd : u.Idx → BitVec 32)
    (hx : ∀ i, x i = 0#32) (hupd : ∀ j, upd j = 1#32) (hu : u.numel < 2 ^ 31) (i : s.Idx) :
    (Host.scatter d IntOp.addi x idx upd i).toInt = (hits d idx i : Int) := by
  rw [scatter_ones_word d x idx upd hx hupd]
  have h := hits_le d idx i
  rw [BitVec.toInt_eq_toNat_cond, BitVec.toNat_ofNat]
  have e : hits d idx i % 2 ^ 32 = hits d idx i := Nat.mod_eq_of_lt (by omega)
  rw [e, if_pos (by omega)]

/-- The extended real `1` scattered by the exact float sum into zeros: element `i` is the number of hits. -/
theorem scatterAdd_ones (d : ScatterDims s si u) (x : s.Idx → EReal) (idx : IVec si w) (upd : u.Idx → EReal)
    (hx : ∀ i, x i = 0) (hupd : ∀ j, upd j = 1) (i : s.Idx) :
    Ideal.hostScatterAdd d x idx upd i = ((hits d idx i : ℝ) : EReal) := by
  unfold Ideal.hostScatterAdd
  rw [hx, zero_add, Finset.sum_congr rfl (fun j _ => hupd j)]
  simp [hits]

/-- COUNTING IN INTEGERS AND IN FLOATS AGREE: the 32-bit count of the updates landing on `i`, converted to a float, is
    the exact float sum of that many ones (fewer than `2^31` updates). -/
theorem sitofp_scatter_ones (d : ScatterDims s si u) (idx : IVec si w)
    (xi : s.Idx → BitVec 32) (ui : u.Idx → BitVec 32) (hxi : ∀ i, xi i = 0#32) (hui : ∀ j, ui j = 1#32)
    (xf : s.Idx → EReal) (uf : u.Idx → EReal) (hxf : ∀ i, xf i = 0) (huf : ∀ j, uf j = 1)
    (hu : u.numel < 2 ^ 31) (i : s.Idx) :
    (((Host.scatter d IntOp.addi xi idx ui i).toInt : ℝ) : EReal) = Ideal.hostScatterAdd d xf idx uf i := by
  rw [scatter_ones_toInt d xi idx ui hxi hui hu, scatterAdd_ones d xf idx uf hxf huf]
  norm_cast

/-- The same read through the host's accumulating scatter (`Host.scatterAdd` at the ideal values). -/
theorem hostScatterAdd_ones (d : ScatterDims s si u) (x : s.Idx → EReal) (idx : IVec si w) (upd : u.Idx → EReal)
    (hx : ∀ i, x i = 0) (hupd : ∀ j, upd j = 1) (i : s.Idx) :
    Host.scatterAdd (F := Ideal) (φ := .f32) d x idx upd i = ((hits d idx i : ℝ) : EReal) :=
  scatterAdd_ones d x idx upd hx hupd i

/-- The two counts under one clamp: the larger of the converted integer count and `b i` is the larger of the float
    count and `b i`.  Stated over whole arrays read at `i`, in the spelling a host program gives them. -/
theorem maximumf_sitofp_scatter_ones (d : ScatterDims s si u) (idx : IVec si w)
    (xi : s.Idx → BitVec 32) (ui : u.Idx → BitVec 32) (hxi : ∀ i, xi i = 0#32) (hui : ∀ j, ui j = 1#32)
    (xf : s.Idx → EReal) (uf : u.Idx → EReal) (hxf : ∀ i, xf i = 0) (huf : ∀ j, uf j = 1)
    (hu : u.numel < 2 ^ 31) (b : s.Idx → EReal) (i : s.Idx) :
    maximumf (F := Ideal) (φ := .f32) (sitofp .f32 (Host.scatter d IntOp.addi xi idx ui)) b i
      = maximumf (F := Ideal) (φ := .f32) (Host.scatterAdd (F := Ideal) (φ := .f32) d xf idx uf) b i := by
  show max (((Host.scatter d IntOp.addi xi idx ui i).toInt : ℝ) : EReal) (b i) = max (Ideal.hostScatterAdd d xf idx uf i) (b i)
  rw [sitofp_scatter_ones d idx xi ui hxi hui xf uf hxf huf hu i]

end Cert.ScatterSum

end
-- ==== Proof.Bridge.lean ====
/-
  The kernel's function of the arguments IS the reference's, on the extended reals.

  THE COUNT.  Both programs count, for each target node, the edges pointing at it, by scattering a one per edge into
  zeros.  The kernel adds 32-bit words and converts the sum; the reference adds float ones.  There are 1600000 edges,
  fewer than 2^31, so the word is the count and the two agree; clamped below by one they are the same positive real.

  THE FEATURES.  Row `p` of the kernel's `xK` is row `p` of `S · x1` divided by node `p`'s count; row `p` of the
  reference's is row `p` of `S` divided by that count, times `x1`.  A positive real divisor moves through the sum
  over the shared axis (Laws.div_sum_mul), so the two arrays are equal.

  THE SQUARES.  The kernel squares the difference, the reference its absolute value: the same extended real
  (Laws.abs_mul_abs).

  Everything else (the gathers along the sources and the targets, the sums per target, the last division, `tanh`)
  is the same operation applied to equal arrays.
-/
import proofs.«170832_j59889023975881_2_alg».proof.Proof.Spec
import proofs.«170832_j59889023975881_2_alg».proof.Proof.Laws
import proofs.«170832_j59889023975881_2_alg».proof.Proof.LibScatterSum

noncomputable section

namespace Cert.Bridge

open Cert.ReferenceIdeal Cert.ReferenceIdeal.Gen Cert.ReferenceIdeal.Read Cert.Spec
open Idealize.ShloMosaic Idealize.ShloMosaic.ValueIdx Idealize.ShloMosaic.MatmulPlain
open scoped BigOperators

/-- The float pattern of one is the real one. -/
theorem one_f32 : Ideal.ofBits .f32 0x3F800000#32 = 1 := IdealRules.sign_bit.ideal_onePat .f32

/-- How many edges point at node `i`. -/
def edges (x2 : (⟨S2x1600000, .i32⟩ : BufTy).Contents (Elt Ideal)) (i : S100000.Idx) : Nat :=
  Cert.ScatterSum.hits scatter_S100000_S1600000x1_S1600000_n_0_0_1 (val_main_v16 (F := Ideal) x2) i

/-- The zero array is zero and the array of ones is one, at every index. -/
theorem v15_zero (i : S100000.Idx) : val_main_v15 (F := Ideal) i = 0 := Ideal.ofBits_zero_f32
theorem v14_one (j : S1600000.Idx) : val_main_v14 (F := Ideal) j = 1 := one_f32

/-- There are fewer than 2^31 edges. -/
theorem numel_edges : S1600000.numel < 2 ^ 31 := by
  show (∏ a : Fin 1, S1600000.size a) < 2 ^ 31
  rw [Fin.prod_univ_one]
  show 1600000 < 2 ^ 31
  norm_num

/-- The reference's float count at node `i` is the number of edges pointing at it. -/
theorem v17_apply (x2 : (⟨S2x1600000, .i32⟩ : BufTy).Contents (Elt Ideal)) (i : S100000.Idx) :
    val_main_v17 (F := Ideal) x2 i = ((edges x2 i : ℝ) : EReal) := by
  unfold val_main_v17 edges
  have h15 := v15_zero
  have h14 := v14_one
  generalize val_main_v15 (F := Ideal) = z at h15 ⊢
  generalize val_main_v14 (F := Ideal) = o at h14 ⊢
  generalize val_main_v16 (F := Ideal) x2 = idx
  exact Cert.ScatterSum.hostScatterAdd_ones _ z idx o h15 h14 i

/-- The clamped count at node `i`, as the reference computes it: the positive real `max (edges) 1`. -/
theorem v19_apply (x2 : (⟨S2x1600000, .i32⟩ : BufTy).Contents (Elt Ideal)) (i : S100000.Idx) :
    val_main_v19 (F := Ideal) x2 i = ((max (edges x2 i : ℝ) 1 : ℝ) : EReal) := by
  rw [val_main_v19_apply, v17_apply]
  show max (((edges x2 i : ℝ) : EReal)) (Ideal.ofBits .f32 0x3F800000#32) = _
  rw [one_f32, Cert.Laws.max_count_one]

/-- THE COUNT: the kernel's converted integer count, clamped, is the reference's clamped float count. -/
theorem cntK_eq (x2 : (⟨S2x1600000, .i32⟩ : BufTy).Contents (Elt Ideal)) : cntK x2 = val_main_v19 (F := Ideal) x2 := by
  funext i
  unfold cntK val_main_v19 val_main_v17
  have hxi : ∀ i, (broadcastInDim S100000 ![] bcast_S_S100000 (constantI S_ 32 0#32) : IVec S100000 32) i = 0#32 :=
    fun _ => rfl
  have hui : ∀ j, (broadcastInDim S1600000 ![] bcast_S_S1600000 (constantI S_ 32 1#32) : IVec S1600000 32) j = 1#32 :=
    fun _ => rfl
  have h15 := v15_zero
  have h14 := v14_one
  generalize (broadcastInDim S100000 ![] bcast_S_S100000 (constantI S_ 32 0#32) : IVec S100000 32) = xi at hxi ⊢
  generalize (broadcastInDim S1600000 ![] bcast_S_S1600000 (constantI S_ 32 1#32) : IVec S1600000 32) = ui at hui ⊢
  generalize val_main_v15 (F := Ideal) = z at h15 ⊢
  generalize val_main_v14 (F := Ideal) = o at h14 ⊢
  generalize val_main_v16 (F := Ideal) x2 = idx
  generalize val_main_v18 (F := Ideal) = b
  exact Cert.ScatterSum.maximumf_sitofp_scatter_ones _ idx xi ui hxi hui z o h15 h14 numel_edges b i

theorem colK_eq (x2 : (⟨S2x1600000, .i32⟩ : BufTy).Contents (Elt Ideal)) : colK x2 = val_main_v20 (F := Ideal) x2 := by
  unfold colK val_main_v20; rw [cntK_eq]

theorem denK_eq (x2 : (⟨S2x1600000, .i32⟩ : BufTy).Contents (Elt Ideal)) : denK x2 = val_main_v21 (F := Ideal) x2 := by
  unfold denK val_main_v21; rw [colK_eq]

/-- The count spread along row `p`: the same positive real at every column. -/
theorem v21_apply (x2 : (⟨S2x1600000, .i32⟩ : BufTy).Contents (Elt Ideal)) (p : Fin 100000) (k : Fin 64) :
    val_main_v21 (F := Ideal) x2 (ix2 p k) = ((max (edges x2 (ix1 p) : ℝ) 1 : ℝ) : EReal) := by
  rw [val_main_v21_apply, val_main_v20_apply, v19_apply]
  have e : idx_main_v20 (idx_main_v21 (ix2 p k)) = ix1 p := funext fun a => by
    match a with
    | ⟨0, _⟩ => rfl
  rw [e]

/-- The reference's matrix product carries the dimension numbers of a plain product. -/
theorem plainR : IsPlain (M := 100000) (N := 64) (K := 64) dot_S100000x64_S64x64_S100000x64_1_0_0_1_n_n :=
  ⟨rfl, rfl, rfl, rfl, rfl, rfl⟩

/-- THE FEATURES: the product divided by the count is the product of the divided rows. -/
theorem xK_eq (x0 : (⟨S100000x64, .f32⟩ : BufTy).Contents (Elt Ideal)) (x1 : (⟨S64x64, .f32⟩ : BufTy).Contents (Elt Ideal))
    (x2 : (⟨S2x1600000, .i32⟩ : BufTy).Contents (Elt Ideal)) : xK x0 x1 x2 = val_main_v23 (F := Ideal) x0 x1 x2 := by
  funext j
  obtain ⟨p, q, rfl⟩ : ∃ (p : Fin 100000) (q : Fin 64), j = ix2 p q := ⟨j 0, j 1, eq_ix2 j⟩
  have hR : val_main_v23 (F := Ideal) x0 x1 x2 = prod (φ₁ := .f32) (φ₂ := .f32) (val_main_v22 (F := Ideal) x0 x2) x1 := by
    unfold val_main_v23
    exact dotGeneral_eq_prod plainR none .single _ _
  rw [hR, prod_apply]
  show Ideal.div (prod (φ₁ := .f32) (φ₂ := .f32) (val_main_v13 (F := Ideal) x0 x2) x1 (ix2 p q)) (denK x2 (ix2 p q)) = _
  rw [prod_apply, denK_eq, v21_apply]
  rw [Cert.Laws.div_sum_mul _ _ (Cert.Laws.max_count_one_pos _)]
  refine Finset.sum_congr rfl fun k _ => ?_
  rw [val_main_v22_apply, v21_apply]
  rfl

/-- THE SQUARES: the absolute value squared is the square. -/
theorem sq_abs {s : Shape} (d : FVec Ideal s .f32) : mulf (Host.absf d) (Host.absf d) = mulf d d :=
  funext fun i => Cert.Laws.abs_mul_abs (d i)

/-- The reference's second count (it counts once per mean) is its first. -/
theorem v51_eq (x2 : (⟨S2x1600000, .i32⟩ : BufTy).Contents (Elt Ideal)) :
    val_main_v51 (F := Ideal) x2 = val_main_v21 (F := Ideal) x2 := rfl

/-- THE RESULT: the kernel's function of the arguments is the reference's last stage. -/
theorem resK_eq (x0 : (⟨S100000x64, .f32⟩ : BufTy).Contents (Elt Ideal)) (x1 : (⟨S64x64, .f32⟩ : BufTy).Contents (Elt Ideal))
    (x2 : (⟨S2x1600000, .i32⟩ : BufTy).Contents (Elt Ideal)) : resK x0 x1 x2 = val_main_v53 (F := Ideal) x0 x1 x2 := by
  unfold resK preK sqK
  unfold val_main_v53 val_main_v52 val_main_v43 val_main_v40 val_main_v39 val_main_v38 val_main_v30 val_main_v37
  rw [xK_eq, denK_eq, v51_eq, sq_abs]
  rfl

end Cert.Bridge

end
-- ==== Proof.lean ====
/-
  The certificate of a graph message-passing kernel with a gating step against its jnp reference, over the extended
  reals.

  Both programs take node features [100000, 64], weights [64, 64] and 1600000 edges (source, target).  They gather the
  features along the sources and sum them per target node (`S`), count the edges per target node (clamped below by
  one), form `x`, gather `x` along sources and along targets, square the differences, sum them per target, divide by
  the count, and apply `tanh` (here `x` is the mean of the neighbours' features times the weights).  The kernel differs from the reference in three places, each an identity on the extended
  reals: it counts in 32-bit integers and converts (fewer than 2^31 edges, so the word is the count); it takes
  `x = (S · W) / count` where the reference takes `(S / count) · W` (a positive real divisor moves through the sum
  over the shared axis, infinite terms included); and it squares the difference where the reference squares its
  absolute value.  Indices out of range are treated by the same gather and scatter operations on both sides, so no
  condition on the edge list is needed, and the finiteness of the float inputs is never used.

  The kernel runs its matrix product and its `tanh` as two pipelined regions over ten row blocks each; what each
  leaves in its output array is one function of the arrays it found (RegionValue), the run's boundaries are read one
  stretch at a time (KernelRun), and the resulting function of the arguments is the reference's last stage (Bridge).
  The three frame claims are the generated frames and the reference's generated run; the ideal pass rewrote nothing,
  so `preserves` is trivial.
-/
import proofs.«170832_j59889023975881_2_alg».proof.Defs
import proofs.«170832_j59889023975881_2_alg».proof.Proof.Gen.Kernel.Frame
import proofs.«170832_j59889023975881_2_alg».proof.Proof.Gen.KernelIdeal.Frame
import proofs.«170832_j59889023975881_2_alg».proof.Proof.Gen.ReferenceIdeal.Run
import proofs.«170832_j59889023975881_2_alg».proof.Proof.Gen.ReferenceIdeal.Read
import proofs.«170832_j59889023975881_2_alg».proof.Proof.Gen.Pre_finite_inputs
import proofs.«170832_j59889023975881_2_alg».proof.Proof.KernelRun
import proofs.«170832_j59889023975881_2_alg».proof.Proof.Bridge

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result at one function of the arguments: the kernel at `Spec.resK`
    (KernelRun.run), the reference at its last stage, which is the same function (Bridge.resK_eq). -/
theorem algebraic : Cert.algebraic_KernelIdeal_ReferenceIdeal := by
  intro m ρ m' ρ' _ hagree
  refine ⟨fun c => Cert.Spec.resK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2]
  exact (Cert.Bridge.resK_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
